-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x128 .f32) (main_arg3 : FVec F S128 .f32) (main_arg4 : FVec F S64x128 .f32) (main_arg5 : FVec F S128x128 .f32) (main_arg6 : FVec F S128 .f32) (main_arg7 : FVec F S128x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S1250000x128 : Shape := ⟨2, ![1250000, 128]⟩

abbrev nBuf : Space → Nat
  | .hbm => 58
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .bf16⟩
  | .hbm, ⟨35, _⟩ => ⟨S1250000x64, .f32⟩
  | .hbm, ⟨36, _⟩ => ⟨S_, .f32⟩
  | .hbm, ⟨37, _⟩ => ⟨S100000x64, .f32⟩
  | .hbm, ⟨38, _⟩ => ⟨S1250000x1, .i32⟩
  | .hbm, ⟨39, _⟩ => ⟨S100000x64, .f32⟩
  | .hbm, ⟨40, _⟩ => ⟨S1x128, .f32⟩
  | .hbm, ⟨41, _⟩ => ⟨S100000x128, .bf16⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x128, .bf16⟩
  | .hbm, ⟨51, _⟩ => ⟨S1250000x128, .f32⟩
  | .hbm, ⟨52, _⟩ => ⟨S_, .f32⟩
  | .hbm, ⟨53, _⟩ => ⟨S100000x128, .f32⟩
  | .hbm, ⟨54, _⟩ => ⟨S1250000x1, .i32⟩
  | .hbm, ⟨55, _⟩ => ⟨S100000x128, .f32⟩
  | .hbm, ⟨56, _⟩ => ⟨S1x128, .f32⟩
  | .hbm, ⟨57, _⟩ => ⟨S100000x128, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S4000x1, .f32⟩
  | .local _ .vmem, ⟨8, _⟩ => ⟨S4000x1, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S4000x1, .f32⟩
  | .local _ .vmem, ⟨19, _⟩ => ⟨S4000x1, .f32⟩
  | .local _ .vmem, ⟨20, _⟩ => ⟨S4000x128, .f32⟩
  | .local _ .vmem, ⟨21, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S4000x64_S64x128_S4000x128_1_0_0_1_n_n_wf : DotDims.WF S4000x64 S64x128 S4000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1250000x128 : Shape := ⟨2, ![1250000, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x128, .f32⟩
  | .hbm, ⟨55, _⟩ => ⟨S_, .f32⟩
  | .hbm, ⟨56, _⟩ => ⟨S100000x128, .f32⟩
  | .hbm, ⟨57, _⟩ => ⟨S1250000x1, .i32⟩
  | .hbm, ⟨58, _⟩ => ⟨S100000x128, .f32⟩
  | .hbm, ⟨59, _⟩ => ⟨S_, .f32⟩
  | .hbm, ⟨60, _⟩ => ⟨S1250000, .f32⟩
  | .hbm, ⟨61, _⟩ => ⟨S_, .f32⟩
  | .hbm, ⟨62, _⟩ => ⟨S100000, .f32⟩
  | .hbm, ⟨63, _⟩ => ⟨S1250000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x128_S100000x128_1_0_0_1_n_n_wf : DotDims.WF S100000x64 S64x128 S100000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S100000x128_S128x128_S100000x128_1_0_0_1_n_n_wf : DotDims.WF S100000x128 S128x128 S100000x128 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  The program is two row-tiled dense stages between stretches of host operations.  Every weakly fair execution ends, nothing
  faulting, with the argument arrays as launched and with the result array holding what the second stage's write-backs
  leave: the fold of its twenty-five flushed blocks over the array as that stage found it.
-/
import proofs.«176434_j46703474376723_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the second stage's
    array after all its write-backs, and the arguments end as launched. -/
theorem run_result : θ_run defs (onTc (τ := τ) (main (F := F))) ⟨m, fun _ => 0, ρ⟩ (fun r => ∀ c : Dev nD,
      r.2.mem ((c.tc : Thread nD τ).loc main_v39) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v39 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibSageLayer.lean ====
/-
  One mean-aggregation layer of a graph network as a function of whole arrays, over the extended reals.

  For a node `p` with neighbour sum `agg (p, ·)`, neighbour count `cnt (p, 0)` and own features `h (p, ·)` the layer's
  entry at `(p, q)` is

      (∑ k, (agg (p, k) / max (cnt (p, 0)) 1) * wl (k, q)  +  ∑ k, h (p, k) * wr (k, q))  +  b (0, q)

  with the count kept as an `[M, 1]` column and the bias as a `[1, N]` row.  The quotient is the extended reals' total
  division, the constant `1` is kept as the float word it is printed as (the same word on every side, never evaluated), and
  the two sums and the bias are added in this order.  `layerRelu` is the same followed by a maximum with the word `0`.
  Row `p` of the result depends on row `p` of `agg`, `h` and `cnt` only, so a block of rows of the result is the layer
  of the same block of rows of the three: that is what makes a row-tiled computation the whole-array one.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word of `1.0`, read at the ideal instance. -/
abbrev oneWord : EReal := Ideal.ofBits .f32 0x3F800000#32
/-- The float word of `0.0`, read at the ideal instance. -/
abbrev zeroWord : EReal := Ideal.ofBits .f32 0x00000000#32

/-- The layer without its activation, entry by entry. -/
def layer {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i =>
  (∑ k : Fin K, Ideal.div (agg (ix2 (i 0) k)) (max (cnt (ix2 (i 0) (0 : Fin 1))) oneWord) * wl (ix2 k (i 1))
    + ∑ k : Fin K, h (ix2 (i 0) k) * wr (ix2 k (i 1))) + b (ix2 (0 : Fin 1) (i 1))

/-- The layer followed by its activation `max · 0`, entry by entry. -/
def layerRelu {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i => max (layer agg h cnt wl wr b i) zeroWord

theorem layer_apply {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) (p : Fin M) (q : Fin N) :
    layer agg h cnt wl wr b (ix2 p q)
      = (∑ k : Fin K, Ideal.div (agg (ix2 p k)) (max (cnt (ix2 p (0 : Fin 1))) oneWord) * wl (ix2 k q)
          + ∑ k : Fin K, h (ix2 p k) * wr (ix2 k q)) + b (ix2 (0 : Fin 1) q) := rfl

theorem layerRelu_apply {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) (p : Fin M) (q : Fin N) :
    layerRelu agg h cnt wl wr b (ix2 p q) = max (layer agg h cnt wl wr b (ix2 p q)) zeroWord := rfl

/-- Row `p'` of the layer of one family of arrays is row `p` of the layer of another family when those two rows of the
    neighbour sums and of the features agree, the count agrees there, and the weights and the bias are the same. -/
theorem layer_row_congr {M M' K N : ℕ} (agg h : (⟨2, ![M, K]⟩ : Shape).Idx → EReal) (cnt : (⟨2, ![M, 1]⟩ : Shape).Idx → EReal)
    (agg' h' : (⟨2, ![M', K]⟩ : Shape).Idx → EReal) (cnt' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hcnt : cnt' (ix2 p' (0 : Fin 1)) = cnt (ix2 p (0 : Fin 1))) (hwl : wl' = wl) (hwr : wr' = wr) (hb : b' = b) :
    layer agg' h' cnt' wl' wr' b' (ix2 p' q) = layer agg h cnt wl wr b (ix2 p q) := by
  subst hwl hwr hb
  rw [layer_apply, layer_apply, hcnt]
  refine congrArg₂ (· + ·) (congrArg₂ (· + ·) (Finset.sum_congr rfl fun k _ => ?_) (Finset.sum_congr rfl fun k _ => ?_)) rfl
  · rw [hagg k]
  · rw [hh k]

/-- The same with the activation. -/
theorem layerRelu_row_congr {M M' K N : ℕ} (agg h : (⟨2, ![M, K]⟩ : Shape).Idx → EReal) (cnt : (⟨2, ![M, 1]⟩ : Shape).Idx → EReal)
    (agg' h' : (⟨2, ![M', K]⟩ : Shape).Idx → EReal) (cnt' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hcnt : cnt' (ix2 p' (0 : Fin 1)) = cnt (ix2 p (0 : Fin 1))) (hwl : wl' = wl) (hwr : wr' = wr) (hb : b' = b) :
    layerRelu agg' h' cnt' wl' wr' b' (ix2 p' q) = layerRelu agg h cnt wl wr b (ix2 p q) :=
  congrArg (max · zeroWord) (layer_row_congr agg h cnt agg' h' cnt' wl wr b wl' wr' b' p p' q hagg hh hcnt hwl hwr hb)

end Cert.Sage

end
-- ==== Proof.LibSageMul.lean ====
/-
  A mean-aggregation layer whose mean is taken by a product with a reciprocal column, over the extended reals.

  For a node `p` with neighbour sum `agg (p, ·)`, own features `h (p, ·)` and a weight `inv (p, 0)` the entry at `(p, q)` is

      (∑ k, (agg (p, k) * inv (p, 0)) * wl (k, q)  +  ∑ k, h (p, k) * wr (k, q))  +  b (0, q).

  When the weight is the reciprocal of the neighbour count raised to at least one, `inv (p, 0) = 1 / max (cnt (p, 0)) 1`,
  this is the layer that divides by that count: the divisor is at least one, so it is not zero, and off zero a product
  with `1 / c` is the quotient by `c` on every extended real, the infinities included.  Nothing here needs a finite entry.
  Row `p` of the result depends on row `p` of `agg`, `h` and `inv` only.
-/
import Idealize.ShloMosaic.PureOps.Ideal
import Idealize.ShloMosaic.PureOps.Ideal.Laws
import Idealize.ShloMosaic.Lib.ValueIdx
import Idealize.ShloMosaic.Lib.IdealHost
import proofs.«176434_j46703474376723_2_alg».proof.Proof.LibSageLayer

noncomputable section

namespace Cert.Sage

open Idealize.ShloMosaic Idealize.ShloMosaic.ValueIdx

/-- The layer with a reciprocal column, without its activation, entry by entry. -/
def layerMul {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i =>
  (∑ k : Fin K, (agg (ix2 (i 0) k) * inv (ix2 (i 0) (0 : Fin 1))) * wl (ix2 k (i 1))
    + ∑ k : Fin K, h (ix2 (i 0) k) * wr (ix2 k (i 1))) + b (ix2 (0 : Fin 1) (i 1))

/-- The same followed by the activation `max · 0`. -/
def layerMulRelu {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i => max (layerMul agg h inv wl wr b i) zeroWord

theorem layerMul_apply {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) (p : Fin M) (q : Fin N) :
    layerMul agg h inv wl wr b (ix2 p q)
      = (∑ k : Fin K, (agg (ix2 p k) * inv (ix2 p (0 : Fin 1))) * wl (ix2 k q)
          + ∑ k : Fin K, h (ix2 p k) * wr (ix2 k q)) + b (ix2 (0 : Fin 1) q) := rfl

theorem layerMulRelu_apply {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) (p : Fin M) (q : Fin N) :
    layerMulRelu agg h inv wl wr b (ix2 p q) = max (layerMul agg h inv wl wr b (ix2 p q)) zeroWord := rfl

/-- Row `p'` of the layer of one family of arrays is row `p` of the layer of another when those rows of the neighbour
    sums and of the features agree, the weight agrees there, and the matrices and the bias are the same. -/
theorem layerMul_row_congr {M M' K N : ℕ} (agg h : (⟨2, ![M, K]⟩ : Shape).Idx → EReal) (inv : (⟨2, ![M, 1]⟩ : Shape).Idx → EReal)
    (agg' h' : (⟨2, ![M', K]⟩ : Shape).Idx → EReal) (inv' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hinv : inv' (ix2 p' (0 : Fin 1)) = inv (ix2 p (0 : Fin 1))) (hwl : wl' = wl) (hwr : wr' = wr) (hb : b' = b) :
    layerMul agg' h' inv' wl' wr' b' (ix2 p' q) = layerMul agg h inv wl wr b (ix2 p q) := by
  subst hwl hwr hb
  rw [layerMul_apply, layerMul_apply, hinv]
  refine congrArg₂ (· + ·) (congrArg₂ (· + ·) (Finset.sum_congr rfl fun k _ => ?_) (Finset.sum_congr rfl fun k _ => ?_)) rfl
  · rw [hagg k]
  · rw [hh k]

/-- The same with the activation. -/
theorem layerMulRelu_row_congr {M M' K N : ℕ} (agg h : (⟨2, ![M, K]⟩ : Shape).Idx → EReal) (inv : (⟨2, ![M, 1]⟩ : Shape).Idx → EReal)
    (agg' h' : (⟨2, ![M', K]⟩ : Shape).Idx → EReal) (inv' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hinv : inv' (ix2 p' (0 : Fin 1)) = inv (ix2 p (0 : Fin 1))) (hwl : wl' = wl) (hwr : wr' = wr) (hb : b' = b) :
    layerMulRelu agg' h' inv' wl' wr' b' (ix2 p' q) = layerMulRelu agg h inv wl wr b (ix2 p q) :=
  congrArg (max · zeroWord) (layerMul_row_congr agg h inv agg' h' inv' wl wr b wl' wr' b' p p' q hagg hh hinv hwl hwr hb)

/-- A count raised to at least one is not zero. -/
theorem max_oneWord_ne_zero (c : EReal) : max c oneWord ≠ 0 := by
  have h1 : (0 : EReal) < oneWord := by
    show (0 : EReal) < Ideal.ofBits .f32 0x3F800000#32
    rw [Ideal.ofBits_one_f32]; exact zero_lt_one
  exact ne_of_gt (lt_of_lt_of_le h1 (le_max_right c oneWord))

/-- With the reciprocal of the raised count as the weight, the product form is the quotient form. -/
theorem layerMul_eq_layer {M K N : ℕ} (agg h : (⟨2, ![M, K]⟩ : Shape).Idx → EReal) (inv cnt : (⟨2, ![M, 1]⟩ : Shape).Idx → EReal)
    (wl wr : (⟨2, ![K, N]⟩ : Shape).Idx → EReal) (b : (⟨2, ![1, N]⟩ : Shape).Idx → EReal)
    (hinv : ∀ p : Fin M, inv (ix2 p (0 : Fin 1)) = Ideal.div oneWord (max (cnt (ix2 p (0 : Fin 1))) oneWord)) :
    layerMul agg h inv wl wr b = layer agg h cnt wl wr b := by
  funext j
  obtain ⟨p, q, rfl⟩ : ∃ (p : Fin M) (q : Fin N), j = ix2 p q := ⟨j 0, j 1, eq_ix2 j⟩
  rw [layerMul_apply, layer_apply, hinv p]
  refine congrArg₂ (· + ·) (congrArg₂ (· + ·) (Finset.sum_congr rfl fun k _ => ?_) rfl) rfl
  have e : agg (ix2 p k) * Ideal.div oneWord (max (cnt (ix2 p (0 : Fin 1))) oneWord)
      = Ideal.div (agg (ix2 p k)) (max (cnt (ix2 p (0 : Fin 1))) oneWord) := by
    have h1 : (oneWord : EReal) = 1 := Ideal.ofBits_one_f32
    have hne := max_oneWord_ne_zero (cnt (ix2 p (0 : Fin 1)))
    generalize max (cnt (ix2 p (0 : Fin 1))) oneWord = c at hne ⊢
    rw [h1]
    exact Ideal.mul_one_div hne
  rw [e]

/-- The same with the activation. -/
theorem layerMulRelu_eq_layerRelu {M K N : ℕ} (agg h : (⟨2, ![M, K]⟩ : Shape).Idx → EReal) (inv cnt : (⟨2, ![M, 1]⟩ : Shape).Idx → EReal)
    (wl wr : (⟨2, ![K, N]⟩ : Shape).Idx → EReal) (b : (⟨2, ![1, N]⟩ : Shape).Idx → EReal)
    (hinv : ∀ p : Fin M, inv (ix2 p (0 : Fin 1)) = Ideal.div oneWord (max (cnt (ix2 p (0 : Fin 1))) oneWord)) :
    layerMulRelu agg h inv wl wr b = layerRelu agg h cnt wl wr b := by
  funext j
  show max (layerMul agg h inv wl wr b j) zeroWord = max (layer agg h cnt wl wr b j) zeroWord
  rw [layerMul_eq_layer agg h inv cnt wl wr b hinv]

end Cert.Sage

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibSageTile.lean ====
/-
  A row tile's dense stage as its body computes it, read entry by entry over the extended reals.

  The body multiplies the tile's neighbour sums by its weight column spread along the features, takes the product with
  the left matrix, adds the tile's own features times the right matrix, then the bias row spread over the tile's rows;
  the operands of the two products are first narrowed to a shorter float format, which changes nothing here.  At an
  entry `(p, q)` this is the two sums over the contracted coordinate plus the bias at `q`: the layer with a reciprocal
  column of the tile's arrays.  The first stage then takes the maximum with zero and narrows the result; in the second
  the tile's own features arrive already narrowed.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176434_j46703474376723_2_alg».proof.Proof.LibSageMul
import proofs.«176434_j46703474376723_2_alg».proof.Proof.LibPlainDot
import proofs.«176434_j46703474376723_2_alg».proof.Proof.LibColumns

noncomputable section

namespace Cert.Sage

open Idealize.ShloMosaic Idealize.ShloMosaic.ValueIdx

variable {M K N : ℕ}

/-- The stage before its activation, the tile's own features already in the shorter format. -/
theorem tileMul_eq (d : DotDims ⟨2, ![M, K]⟩ ⟨2, ![K, N]⟩ ⟨2, ![M, N]⟩) (hd : d = DotDims.plain M K N)
    (inv : FVec Ideal ⟨2, ![M, 1]⟩ .f32) (agg : FVec Ideal ⟨2, ![M, K]⟩ .f32) (xb : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (mulf (shapeCast ⟨2, ![M, K]⟩ agg ha)
            (broadcastTo ⟨2, ![M, K]⟩ (shapeCast ⟨2, ![M, 1]⟩ inv hc) hbc)) t)
          (truncf .bf16 wl t) (constant ⟨2, ![M, N]⟩ .f32 0x00000000#32))
        (matmul d none xb (truncf .bf16 wr t) (constant ⟨2, ![M, N]⟩ .f32 0x00000000#32)))
      (broadcastTo ⟨2, ![M, N]⟩ (shapeCast ⟨2, ![1, N]⟩ b hb) hbr)
    = layerMul agg xb inv wl wr b := by
  funext j
  obtain ⟨p, q, rfl⟩ : ∃ (p : Fin M) (q : Fin N), j = ix2 p q := ⟨j 0, j 1, eq_ix2 j⟩
  rw [layerMul_apply, addf_apply, addf_apply]
  show FloatOps.matmul d none _ _ (constant ⟨2, ![M, N]⟩ .f32 0x00000000#32) (ix2 p q)
      + FloatOps.matmul d none _ _ (constant ⟨2, ![M, N]⟩ .f32 0x00000000#32) (ix2 p q) + _ = _
  rw [PlainDot.matmul_zero_apply d hd, PlainDot.matmul_zero_apply d hd, broadcastTo_1b_ab_apply]
  refine congrArg₂ (· + ·) (congrArg₂ (· + ·) (Finset.sum_congr rfl fun k _ => ?_) (Finset.sum_congr rfl fun k _ => ?_)) ?_
  · show (shapeCast ⟨2, ![M, K]⟩ agg ha (ix2 p k) * broadcastTo ⟨2, ![M, K]⟩ (shapeCast ⟨2, ![M, 1]⟩ inv hc) hbc (ix2 p k)) * wl (ix2 k q) = _
    rw [broadcastTo_a1_ab_apply, shapeCast_self, shapeCast_self]
  · rfl
  · rw [shapeCast_self]

/-- The first stage: own features narrowed in the body, maximum with zero, the result narrowed. -/
theorem tileFirst_eq (d : DotDims ⟨2, ![M, K]⟩ ⟨2, ![K, N]⟩ ⟨2, ![M, N]⟩) (hd : d = DotDims.plain M K N)
    (inv : FVec Ideal ⟨2, ![M, 1]⟩ .f32) (agg x : FVec Ideal ⟨2, ![M, K]⟩ .f32)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    truncf .bf16 (maximumf (addf (addf
        (matmul d none (truncf .bf16 (mulf (shapeCast ⟨2, ![M, K]⟩ agg ha)
            (broadcastTo ⟨2, ![M, K]⟩ (shapeCast ⟨2, ![M, 1]⟩ inv hc) hbc)) t)
          (truncf .bf16 wl t) (constant ⟨2, ![M, N]⟩ .f32 0x00000000#32))
        (matmul d none (truncf .bf16 x t) (truncf .bf16 wr t) (constant ⟨2, ![M, N]⟩ .f32 0x00000000#32)))
      (broadcastTo ⟨2, ![M, N]⟩ (shapeCast ⟨2, ![1, N]⟩ b hb) hbr))
      (broadcast ⟨2, ![M, N]⟩ (Scalar.ofBits (F := Ideal) .f32 0x00000000#32))) t
    = layerMulRelu agg x inv wl wr b := by
  funext j
  exact congrArg (fun v => max v zeroWord)
    (congrFun (tileMul_eq d hd inv agg (truncf .bf16 x t) wl wr b hc ha hb hbc hbr t) j)

/-- The second stage: own features arrive narrowed and pass through a cast to their own shape; no activation. -/
theorem tileSecond_eq (d : DotDims ⟨2, ![M, K]⟩ ⟨2, ![K, N]⟩ ⟨2, ![M, N]⟩) (hd : d = DotDims.plain M K N)
    (inv : FVec Ideal ⟨2, ![M, 1]⟩ .f32) (agg : FVec Ideal ⟨2, ![M, K]⟩ .f32) (h : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (mulf (shapeCast ⟨2, ![M, K]⟩ agg ha)
            (broadcastTo ⟨2, ![M, K]⟩ (shapeCast ⟨2, ![M, 1]⟩ inv hc) hbc)) t)
          (truncf .bf16 wl t) (constant ⟨2, ![M, N]⟩ .f32 0x00000000#32))
        (matmul d none (shapeCast ⟨2, ![M, K]⟩ h ha) (truncf .bf16 wr t) (constant ⟨2, ![M, N]⟩ .f32 0x00000000#32)))
      (broadcastTo ⟨2, ![M, N]⟩ (shapeCast ⟨2, ![1, N]⟩ b hb) hbr)
    = layerMul agg h inv wl wr b := by
  rw [tileMul_eq d hd inv agg (shapeCast ⟨2, ![M, K]⟩ h ha) wl wr b hc ha hb hbc hbr t, shapeCast_self]

end Cert.Sage

end
-- ==== Proof.KernelBlocks.lean ====
/-
  Each dense stage's output array as one function of the arrays the stage is entered with.

  A stage walks twenty-five row tiles of 4000 nodes.  At tile `t` it reads rows `4000 t … 4000 t + 3999` of the
  neighbour sums, of the nodes' own features and of the weight column, the whole of both matrices and of the bias row,
  and writes rows `4000 t … 4000 t + 3999` of its output.  A row of the layer depends on the same row of those three
  arrays only, so what a tile writes is that block of rows of the layer of the WHOLE arrays; the tiles cover every row
  once, so the output array ends at the layer of the whole arrays: with the activation for the first stage, without
  it for the second.
-/
import proofs.«176434_j46703474376723_2_alg».proof.Proof.Gen.KernelIdeal.Frame
import Idealize.ShloMosaic.PureOps.Ideal
import Idealize.ShloMosaic.Lib.Pipeline.Value
import Idealize.ShloMosaic.Lib.ValueIdx
import proofs.«176434_j46703474376723_2_alg».proof.Proof.LibSageTile

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first stage -/

/-- The body's stored value is the layer of the blocks it loads. -/
theorem pay0_eq (x0 : FVec Ideal S4000x64 .f32) (x1 : FVec Ideal S4000x64 .f32) (x2 x4 : FVec Ideal S64x128 .f32)
    (x3 : FVec Ideal S1x128 .f32) (x5 : FVec Ideal S4000x1 .f32) :
    k0_pay1 (F := Ideal) x0 x5 x1 x2 x4 x3 = layerMulRelu x0 x1 x5 x2 x4 x3 := by
  unfold k0_pay1
  exact tileFirst_eq dot_S4000x64_S64x128_S4000x128_1_0_0_1_n_n rfl x5 x0 x1 x2 x4 x3 _ _ _ _ _ _

/-- Where each window's block sits at point `t`: the row-tiled windows at block row `t`, the matrices and the bias at
    their one block. -/
structure Idx0 (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = t.val ∧ win0_5.index t (1 : Fin 2) = 0
  w6 : win0_6.index t (0 : Fin 2) = t.val ∧ win0_6.index t (1 : Fin 2) = 0

theorem idx0_raw : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem idx0 (t : Fin cfg0.N) : Idx0 t :=
  let ⟨h0, h1, h2, h3, h4, h5, h6⟩ := idx0_raw t
  ⟨h0, h1, h2, h3, h4, h5, h6⟩

theorem lt0 (t : Fin cfg0.N) : t.val < 25 := lt_of_lt_of_eq t.isLt N_0

/-- Window 0's block at point `t` holds rows `4000 t … 4000 t + 3999` of its array. -/
theorem read0_0 (c : Dev nD) (t : Fin cfg0.N) (p : Fin 4000) (k : Fin 64) (P : Fin 100000) (hP : P.val = t.val * 4000 + p.val) :
    iblk0 V c 0 t (ix2 p k) = V c main_v24 (ix2 P k) := by
  have e := idx0 t
  show V c main_v24 (((cfg0.win 0).blk t).view.emb (ix2 p k)) = V c main_v24 (ix2 P k)
  congr 1
  funext a
  apply Fin.ext
  match a with
  | ⟨0, _⟩ => show win0_0.index t (0 : Fin 2) * 4000 + 1 * p.val = P.val; rw [e.w0.1, hP]; omega
  | ⟨1, _⟩ => show win0_0.index t (1 : Fin 2) * 64 + 1 * k.val = k.val; rw [e.w0.2]; omega

/-- Window 1's block at point `t` holds rows `4000 t … 4000 t + 3999` of its array. -/
theorem read0_1 (c : Dev nD) (t : Fin cfg0.N) (p : Fin 4000) (k : Fin 64) (P : Fin 100000) (hP : P.val = t.val * 4000 + p.val) :
    iblk0 V c 1 t (ix2 p k) = V c main_arg0 (ix2 P k) := by
  have e := idx0 t
  show V c main_arg0 (((cfg0.win 1).blk t).view.emb (ix2 p k)) = V c main_arg0 (ix2 P k)
  congr 1
  funext a
  apply Fin.ext
  match a with
  | ⟨0, _⟩ => show win0_1.index t (0 : Fin 2) * 4000 + 1 * p.val = P.val; rw [e.w1.1, hP]; omega
  | ⟨1, _⟩ => show win0_1.index t (1 : Fin 2) * 64 + 1 * k.val = k.val; rw [e.w1.2]; omega

/-- Window 5's block at point `t` holds rows `4000 t … 4000 t + 3999` of its array. -/
theorem read0_5 (c : Dev nD) (t : Fin cfg0.N) (p : Fin 4000) (k : Fin 1) (P : Fin 100000) (hP : P.val = t.val * 4000 + p.val) :
    iblk0 V c 5 t (ix2 p k) = V c main_v12 (ix2 P k) := by
  have e := idx0 t
  show V c main_v12 (((cfg0.win 5).blk t).view.emb (ix2 p k)) = V c main_v12 (ix2 P k)
  congr 1
  funext a
  apply Fin.ext
  match a with
  | ⟨0, _⟩ => show win0_5.index t (0 : Fin 2) * 4000 + 1 * p.val = P.val; rw [e.w5.1, hP]; omega
  | ⟨1, _⟩ => show win0_5.index t (1 : Fin 2) * 1 + 1 * k.val = k.val; rw [e.w5.2]; omega

/-- Window 2 has one block, the whole of its array, at every point. -/
theorem whole0_2 (c : Dev nD) (t : Fin cfg0.N) : iblk0 V c 2 t = V c main_arg2 := by
  have e := idx0 t
  funext y
  show V c main_arg2 (((cfg0.win 2).blk t).view.emb y) = V c main_arg2 y
  congr 1
  funext a
  apply Fin.ext
  match a with
  | ⟨0, _⟩ => show win0_2.index t (0 : Fin 2) * 64 + 1 * (y 0).val = (y 0).val; rw [e.w2.1]; omega
  | ⟨1, _⟩ => show win0_2.index t (1 : Fin 2) * 128 + 1 * (y 1).val = (y 1).val; rw [e.w2.2]; omega

/-- Window 3 has one block, the whole of its array, at every point. -/
theorem whole0_3 (c : Dev nD) (t : Fin cfg0.N) : iblk0 V c 3 t = V c main_v25 := by
  have e := idx0 t
  funext y
  show V c main_v25 (((cfg0.win 3).blk t).view.emb y) = V c main_v25 y
  congr 1
  funext a
  apply Fin.ext
  match a with
  | ⟨0, _⟩ => show win0_3.index t (0 : Fin 2) * 1 + 1 * (y 0).val = (y 0).val; rw [e.w3.1]; omega
  | ⟨1, _⟩ => show win0_3.index t (1 : Fin 2) * 128 + 1 * (y 1).val = (y 1).val; rw [e.w3.2]; omega

/-- Window 4 has one block, the whole of its array, at every point. -/
theorem whole0_4 (c : Dev nD) (t : Fin cfg0.N) : iblk0 V c 4 t = V c main_arg4 := by
  have e := idx0 t
  funext y
  show V c main_arg4 (((cfg0.win 4).blk t).view.emb y) = V c main_arg4 y
  congr 1
  funext a
  apply Fin.ext
  match a with
  | ⟨0, _⟩ => show win0_4.index t (0 : Fin 2) * 64 + 1 * (y 0).val = (y 0).val; rw [e.w4.1]; omega
  | ⟨1, _⟩ => show win0_4.index t (1 : Fin 2) * 128 + 1 * (y 1).val = (y 1).val; rw [e.w4.2]; omega

/-- What point `t` writes back is rows `4000 t … 4000 t + 3999` of the layer of the whole arrays: a row of the layer
    depends on that row of the neighbour sums, of the features and of the weight column only. -/
theorem flushed0_eq (c : Dev nD) (t : Fin cfg0.N) :
    (dat0 V c).flushed 6 t = ((cfg0.win 6).blk t).view.read (Elt Ideal) (layerMulRelu (V c main_v24) (V c main_arg0) (V c main_v12) (V c main_arg2) (V c main_arg4) (V c main_v25)) := by
  show (cfg0.win 6).cut (grid0.coords t) ((dat0 V c).after 6 t) = _
  rw [after0_6]
  unfold out0_6
  rw [View.canon_unit_zero hz]
  simp only [View.ld_unit_zero (S := S4000x64) hz, View.ld_unit_zero (S := S4000x1) hz, View.ld_unit_zero (S := S64x128) hz,
    View.ld_unit_zero (S := S1x128) hz]
  rw [pay0_eq]
  funext j
  obtain ⟨p, q, rfl⟩ : ∃ (p : Fin 4000) (q : Fin 128), j = ix2 p q := ⟨j 0, j 1, eq_ix2 j⟩
  have ht := lt0 t
  have hp := p.isLt
  have hP : t.val * 4000 + p.val < 100000 := by omega
  have e := idx0 t
  have hemb : ((cfg0.win 6).blk t).view.emb (ix2 p q) = (ix2 (⟨t.val * 4000 + p.val, hP⟩ : Fin 100000) q : S100000x128.Idx) := by
    funext a
    apply Fin.ext
    match a with
    | ⟨0, _⟩ => show win0_6.index t (0 : Fin 2) * 4000 + 1 * p.val = t.val * 4000 + p.val; rw [e.w6.1]; omega
    | ⟨1, _⟩ => show win0_6.index t (1 : Fin 2) * 128 + 1 * q.val = q.val; rw [e.w6.2]; omega
  show layerMulRelu (iblk0 V c 0 t) (iblk0 V c 1 t) (iblk0 V c 5 t) (iblk0 V c 2 t) (iblk0 V c 4 t) (iblk0 V c 3 t) (ix2 p q)
      = (layerMulRelu (V c main_v24) (V c main_arg0) (V c main_v12) (V c main_arg2) (V c main_arg4) (V c main_v25)) (((cfg0.win 6).blk t).view.emb (ix2 p q))
  rw [hemb]
  exact layerMulRelu_row_congr (V c main_v24) (V c main_arg0) (V c main_v12) (iblk0 V c 0 t) (iblk0 V c 1 t) (iblk0 V c 5 t)
    (V c main_arg2) (V c main_arg4) (V c main_v25) (iblk0 V c 2 t) (iblk0 V c 4 t) (iblk0 V c 3 t)
    (⟨t.val * 4000 + p.val, hP⟩ : Fin 100000) p q
    (fun k => read0_0 V c t p k _ rfl) (fun k => read0_1 V c t p k _ rfl) (read0_5 V c t p (0 : Fin 1) _ rfl)
    (whole0_2 V c t) (whole0_4 V c t) (whole0_3 V c t)

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26).slice (win0_6.rect t)).set ↔ _
  rw [View.set_slice_whole, Rect.mem_set_unit]
  exact Iff.rfl

/-- The twenty-five row blocks tile the output: row `r` is in block `r / 4000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 4000 < cfg0.N := by rw [show cfg0.N = 25 from N_0]; omega
  refine ⟨⟨(i 0).val / 4000, hN⟩, flush0_6 _, ?_⟩
  have e := idx0 ⟨(i 0).val / 4000, hN⟩
  rw [mem_blk0]
  intro a
  match a with
  | ⟨0, _⟩ =>
    show win0_6.index ⟨(i 0).val / 4000, hN⟩ (0 : Fin 2) * 4000 ≤ (i 0).val ∧ (i 0).val < win0_6.index ⟨(i 0).val / 4000, hN⟩ (0 : Fin 2) * 4000 + 4000
    rw [e.w6.1]; show (i 0).val / 4000 * 4000 ≤ (i 0).val ∧ (i 0).val < (i 0).val / 4000 * 4000 + 4000; omega
  | ⟨1, _⟩ =>
    show win0_6.index ⟨(i 0).val / 4000, hN⟩ (1 : Fin 2) * 128 ≤ (i 1).val ∧ (i 1).val < win0_6.index ⟨(i 0).val / 4000, hN⟩ (1 : Fin 2) * 128 + 128
    rw [e.w6.2]; omega

/-- The output array after all the write-backs is the layer of the arrays as the stage found them. -/
theorem final0 (c : Dev nD) : (dat0 V c).arrAt 6 cfg0.N = layerMulRelu (V c main_v24) (V c main_arg0) (V c main_v12) (V c main_arg2) (V c main_arg4) (V c main_v25) :=
  (dat0 V c).arrAt_eq_of_cover 6 _ (fun t _ => flushed0_eq V c t) cover0

/-! ## The second stage -/

/-- The body's stored value is the layer of the blocks it loads. -/
theorem pay1_eq (x0 : FVec Ideal S4000x128 .f32) (x1 : FVec Ideal S4000x128 .bf16) (x2 x4 : FVec Ideal S128x128 .f32)
    (x3 : FVec Ideal S1x128 .f32) (x5 : FVec Ideal S4000x1 .f32) :
    k1_pay1 (F := Ideal) x0 x5 x1 x2 x4 x3 = layerMul x0 x1 x5 x2 x4 x3 := by
  unfold k1_pay1
  exact tileSecond_eq dot_S4000x128_S128x128_S4000x128_1_0_0_1_n_n rfl x5 x0 x1 x2 x4 x3 _ _ _ _ _ _

/-- Where each window's block sits at point `t`: the row-tiled windows at block row `t`, the matrices and the bias at
    their one block. -/
structure Idx1 (t : Fin cfg1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = t.val ∧ win1_5.index t (1 : Fin 2) = 0
  w6 : win1_6.index t (0 : Fin 2) = t.val ∧ win1_6.index t (1 : Fin 2) = 0

theorem idx1_raw : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem idx1 (t : Fin cfg1.N) : Idx1 t :=
  let ⟨h0, h1, h2, h3, h4, h5, h6⟩ := idx1_raw t
  ⟨h0, h1, h2, h3, h4, h5, h6⟩

theorem lt1 (t : Fin cfg1.N) : t.val < 25 := lt_of_lt_of_eq t.isLt N_1

/-- Window 0's block at point `t` holds rows `4000 t … 4000 t + 3999` of its array. -/
theorem read1_0 (c : Dev nD) (t : Fin cfg1.N) (p : Fin 4000) (k : Fin 128) (P : Fin 100000) (hP : P.val = t.val * 4000 + p.val) :
    iblk1 V c 0 t (ix2 p k) = V c main_v37 (ix2 P k) := by
  have e := idx1 t
  show V c main_v37 (((cfg1.win 0).blk t).view.emb (ix2 p k)) = V c main_v37 (ix2 P k)
  congr 1
  funext a
  apply Fin.ext
  match a with
  | ⟨0, _⟩ => show win1_0.index t (0 : Fin 2) * 4000 + 1 * p.val = P.val; rw [e.w0.1, hP]; omega
  | ⟨1, _⟩ => show win1_0.index t (1 : Fin 2) * 128 + 1 * k.val = k.val; rw [e.w0.2]; omega

/-- Window 1's block at point `t` holds rows `4000 t … 4000 t + 3999` of its array. -/
theorem read1_1 (c : Dev nD) (t : Fin cfg1.N) (p : Fin 4000) (k : Fin 128) (P : Fin 100000) (hP : P.val = t.val * 4000 + p.val) :
    iblk1 V c 1 t (ix2 p k) = V c main_v26 (ix2 P k) := by
  have e := idx1 t
  show V c main_v26 (((cfg1.win 1).blk t).view.emb (ix2 p k)) = V c main_v26 (ix2 P k)
  congr 1
  funext a
  apply Fin.ext
  match a with
  | ⟨0, _⟩ => show win1_1.index t (0 : Fin 2) * 4000 + 1 * p.val = P.val; rw [e.w1.1, hP]; omega
  | ⟨1, _⟩ => show win1_1.index t (1 : Fin 2) * 128 + 1 * k.val = k.val; rw [e.w1.2]; omega

/-- Window 5's block at point `t` holds rows `4000 t … 4000 t + 3999` of its array. -/
theorem read1_5 (c : Dev nD) (t : Fin cfg1.N) (p : Fin 4000) (k : Fin 1) (P : Fin 100000) (hP : P.val = t.val * 4000 + p.val) :
    iblk1 V c 5 t (ix2 p k) = V c main_v12 (ix2 P k) := by
  have e := idx1 t
  show V c main_v12 (((cfg1.win 5).blk t).view.emb (ix2 p k)) = V c main_v12 (ix2 P k)
  congr 1
  funext a
  apply Fin.ext
  match a with
  | ⟨0, _⟩ => show win1_5.index t (0 : Fin 2) * 4000 + 1 * p.val = P.val; rw [e.w5.1, hP]; omega
  | ⟨1, _⟩ => show win1_5.index t (1 : Fin 2) * 1 + 1 * k.val = k.val; rw [e.w5.2]; omega

/-- Window 2 has one block, the whole of its array, at every point. -/
theorem whole1_2 (c : Dev nD) (t : Fin cfg1.N) : iblk1 V c 2 t = V c main_arg5 := by
  have e := idx1 t
  funext y
  show V c main_arg5 (((cfg1.win 2).blk t).view.emb y) = V c main_arg5 y
  congr 1
  funext a
  apply Fin.ext
  match a with
  | ⟨0, _⟩ => show win1_2.index t (0 : Fin 2) * 128 + 1 * (y 0).val = (y 0).val; rw [e.w2.1]; omega
  | ⟨1, _⟩ => show win1_2.index t (1 : Fin 2) * 128 + 1 * (y 1).val = (y 1).val; rw [e.w2.2]; omega

/-- Window 3 has one block, the whole of its array, at every point. -/
theorem whole1_3 (c : Dev nD) (t : Fin cfg1.N) : iblk1 V c 3 t = V c main_v38 := by
  have e := idx1 t
  funext y
  show V c main_v38 (((cfg1.win 3).blk t).view.emb y) = V c main_v38 y
  congr 1
  funext a
  apply Fin.ext
  match a with
  | ⟨0, _⟩ => show win1_3.index t (0 : Fin 2) * 1 + 1 * (y 0).val = (y 0).val; rw [e.w3.1]; omega
  | ⟨1, _⟩ => show win1_3.index t (1 : Fin 2) * 128 + 1 * (y 1).val = (y 1).val; rw [e.w3.2]; omega

/-- Window 4 has one block, the whole of its array, at every point. -/
theorem whole1_4 (c : Dev nD) (t : Fin cfg1.N) : iblk1 V c 4 t = V c main_arg7 := by
  have e := idx1 t
  funext y
  show V c main_arg7 (((cfg1.win 4).blk t).view.emb y) = V c main_arg7 y
  congr 1
  funext a
  apply Fin.ext
  match a with
  | ⟨0, _⟩ => show win1_4.index t (0 : Fin 2) * 128 + 1 * (y 0).val = (y 0).val; rw [e.w4.1]; omega
  | ⟨1, _⟩ => show win1_4.index t (1 : Fin 2) * 128 + 1 * (y 1).val = (y 1).val; rw [e.w4.2]; omega

/-- What point `t` writes back is rows `4000 t … 4000 t + 3999` of the layer of the whole arrays: a row of the layer
    depends on that row of the neighbour sums, of the features and of the weight column only. -/
theorem flushed1_eq (c : Dev nD) (t : Fin cfg1.N) :
    (dat1 V c).flushed 6 t = ((cfg1.win 6).blk t).view.read (Elt Ideal) (layerMul (V c main_v37) (V c main_v26) (V c main_v12) (V c main_arg5) (V c main_arg7) (V c main_v38)) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz, View.ld_unit_zero (S := S128x128) hz,
    View.ld_unit_zero (S := S1x128) hz]
  rw [pay1_eq]
  funext j
  obtain ⟨p, q, rfl⟩ : ∃ (p : Fin 4000) (q : Fin 128), j = ix2 p q := ⟨j 0, j 1, eq_ix2 j⟩
  have ht := lt1 t
  have hp := p.isLt
  have hP : t.val * 4000 + p.val < 100000 := by omega
  have e := idx1 t
  have hemb : ((cfg1.win 6).blk t).view.emb (ix2 p q) = (ix2 (⟨t.val * 4000 + p.val, hP⟩ : Fin 100000) q : S100000x128.Idx) := by
    funext a
    apply Fin.ext
    match a with
    | ⟨0, _⟩ => show win1_6.index t (0 : Fin 2) * 4000 + 1 * p.val = t.val * 4000 + p.val; rw [e.w6.1]; omega
    | ⟨1, _⟩ => show win1_6.index t (1 : Fin 2) * 128 + 1 * q.val = q.val; rw [e.w6.2]; omega
  show layerMul (iblk1 V c 0 t) (iblk1 V c 1 t) (iblk1 V c 5 t) (iblk1 V c 2 t) (iblk1 V c 4 t) (iblk1 V c 3 t) (ix2 p q)
      = (layerMul (V c main_v37) (V c main_v26) (V c main_v12) (V c main_arg5) (V c main_arg7) (V c main_v38)) (((cfg1.win 6).blk t).view.emb (ix2 p q))
  rw [hemb]
  exact layerMul_row_congr (V c main_v37) (V c main_v26) (V c main_v12) (iblk1 V c 0 t) (iblk1 V c 1 t) (iblk1 V c 5 t)
    (V c main_arg5) (V c main_arg7) (V c main_v38) (iblk1 V c 2 t) (iblk1 V c 4 t) (iblk1 V c 3 t)
    (⟨t.val * 4000 + p.val, hP⟩ : Fin 100000) p q
    (fun k => read1_0 V c t p k _ rfl) (fun k => read1_1 V c t p k _ rfl) (read1_5 V c t p (0 : Fin 1) _ rfl)
    (whole1_2 V c t) (whole1_4 V c t) (whole1_3 V c t)

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v39).slice (win1_6.rect t)).set ↔ _
  rw [View.set_slice_whole, Rect.mem_set_unit]
  exact Iff.rfl

/-- The twenty-five row blocks tile the output: row `r` is in block `r / 4000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 4000 < cfg1.N := by rw [show cfg1.N = 25 from N_1]; omega
  refine ⟨⟨(i 0).val / 4000, hN⟩, flush1_6 _, ?_⟩
  have e := idx1 ⟨(i 0).val / 4000, hN⟩
  rw [mem_blk1]
  intro a
  match a with
  | ⟨0, _⟩ =>
    show win1_6.index ⟨(i 0).val / 4000, hN⟩ (0 : Fin 2) * 4000 ≤ (i 0).val ∧ (i 0).val < win1_6.index ⟨(i 0).val / 4000, hN⟩ (0 : Fin 2) * 4000 + 4000
    rw [e.w6.1]; show (i 0).val / 4000 * 4000 ≤ (i 0).val ∧ (i 0).val < (i 0).val / 4000 * 4000 + 4000; omega
  | ⟨1, _⟩ =>
    show win1_6.index ⟨(i 0).val / 4000, hN⟩ (1 : Fin 2) * 128 ≤ (i 1).val ∧ (i 1).val < win1_6.index ⟨(i 0).val / 4000, hN⟩ (1 : Fin 2) * 128 + 128
    rw [e.w6.2]; omega

/-- The output array after all the write-backs is the layer of the arrays as the stage found them. -/
theorem final1 (c : Dev nD) : (dat1 V c).arrAt 6 cfg1.N = layerMul (V c main_v37) (V c main_v26) (V c main_v12) (V c main_arg5) (V c main_arg7) (V c main_v38) :=
  (dat1 V c).arrAt_eq_of_cover 6 _ (fun t _ => flushed1_eq V c t) cover1

end Cert.KernelIdeal.Blocks

end
-- ==== Proof.KernelHost.lean ====
/-
  What the host operations around the two dense stages compute, as functions of the buffers they read.

  From the edge list `e : [2, E]` the program takes the source row and the destination row.  The neighbour sum of a
  feature array `f` gathers row `src j` of `f` for every edge `j` (a negative source first shifted up by the number of
  nodes) and adds it into row `dst j` of an array of zeros.  The neighbour count adds a one into entry `dst j` of a
  vector of zeros for every edge; the weight column is, entry by entry, one divided by that count raised to at least
  one, laid out as a column.  A bias vector is laid out as a row.  Changing the float format of the gathered rows before
  and after the gather changes nothing at the ideal values, where a format change is the identity and a gather only
  moves entries.
-/
import proofs.«176434_j46703474376723_2_alg».proof.Proof.Gen.KernelIdeal.Launch
import Idealize.ShloMosaic.PureOps.Ideal
import Idealize.ShloMosaic.Lib.StableHlo.Run

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

/-- The source node of every edge. -/
def srcVec (e : (⟨S2x1250000, .i32⟩ : BufTy).Contents (Elt Ideal)) : (⟨S1250000, .i32⟩ : BufTy).Contents (Elt Ideal) :=
  shapeCast S1250000 (extractStridedSlice S1x1250000 ![0, 0] e slices_S2x1250000_S1x1250000_0_0) shapeCasts_S1x1250000_S1250000
/-- The destination node of every edge. -/
def dstVec (e : (⟨S2x1250000, .i32⟩ : BufTy).Contents (Elt Ideal)) : (⟨S1250000, .i32⟩ : BufTy).Contents (Elt Ideal) :=
  shapeCast S1250000 (extractStridedSlice S1x1250000 ![1, 0] e slices_S2x1250000_S1x1250000_1_0) shapeCasts_S1x1250000_S1250000
/-- The gather's start indices: a negative source shifted up by the number of nodes, as a column. -/
def srcCol (s : (⟨S1250000, .i32⟩ : BufTy).Contents (Elt Ideal)) : (⟨S1250000x1, .i32⟩ : BufTy).Contents (Elt Ideal) :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 100000#32))) s)
/-- The scatter's indices: the destinations as a column. -/
def dstCol (d : (⟨S1250000, .i32⟩ : BufTy).Contents (Elt Ideal)) : (⟨S1250000x1, .i32⟩ : BufTy).Contents (Elt Ideal) :=
  broadcastInDim S1250000x1 ![0] bcast_S1250000_S1250000x1_0 d
/-- How many edges end at each node. -/
def cntVec (d : (⟨S1250000, .i32⟩ : BufTy).Contents (Elt Ideal)) : FVec Ideal S100000 .f32 :=
  Host.scatterAdd (F := Ideal) scatter_S100000_S1250000x1_S1250000_n_0_0_1
    (broadcastInDim S100000 ![] bcast_S_S100000 (constant (F := Ideal) S_ .f32 0x00000000#32)) (dstCol d)
    (broadcastInDim S1250000 ![] bcast_S_S1250000 (constant (F := Ideal) S_ .f32 0x3F800000#32))
/-- One over the count raised to at least one, as a column. -/
def invCol (d : (⟨S1250000, .i32⟩ : BufTy).Contents (Elt Ideal)) : FVec Ideal S100000x1 .f32 :=
  shapeCast S100000x1 (Host.divf (F := Ideal) (broadcastInDim S100000 ![] bcast_S_S100000 (constant (F := Ideal) S_ .f32 0x3F800000#32))
    (maximumf (cntVec d) (broadcastInDim S100000 ![] bcast_S_S100000 (constant (F := Ideal) S_ .f32 0x3F800000#32)))) shapeCasts_S100000_S100000x1
/-- The neighbour sums of a 64-feature array. -/
def aggr64 (f : FVec Ideal S100000x64 .f32) (s d : (⟨S1250000, .i32⟩ : BufTy).Contents (Elt Ideal)) : FVec Ideal S100000x64 .f32 :=
  Host.scatterAdd (F := Ideal) scatter_S100000x64_S1250000x1_S1250000x64_1_0_0_1
    (broadcastInDim S100000x64 ![] bcast_S_S100000x64 (constant (F := Ideal) S_ .f32 0x00000000#32)) (dstCol d)
    (Host.gather gather_S100000x64_S1250000x1_S1250000x64_1_0_n_n_0_1_164 f (srcCol s))
/-- The neighbour sums of a 128-feature array. -/
def aggr128 (f : FVec Ideal S100000x128 .f32) (s d : (⟨S1250000, .i32⟩ : BufTy).Contents (Elt Ideal)) : FVec Ideal S100000x128 .f32 :=
  Host.scatterAdd (F := Ideal) scatter_S100000x128_S1250000x1_S1250000x128_1_0_0_1
    (broadcastInDim S100000x128 ![] bcast_S_S100000x128 (constant (F := Ideal) S_ .f32 0x00000000#32)) (dstCol d)
    (Host.gather gather_S100000x128_S1250000x1_S1250000x128_1_0_n_n_0_1_1128 f (srcCol s))
/-- A bias vector as a row. -/
def biasRow (b : FVec Ideal S128 .f32) : FVec Ideal S1x128 .f32 := shapeCast S1x128 b shapeCasts_S128_S1x128

variable (W : Valuation τ sig (Elt Ideal))

/-! ## The operations before the first stage -/

theorem ops0_v1 : StableHlo.after (hostOps0 (F := Ideal)) W (Proc.devRef .tc main_v1) = srcVec (W (Proc.devRef .tc main_arg1)) := by
  after_results_simp; rfl
theorem ops0_v3 : StableHlo.after (hostOps0 (F := Ideal)) W (Proc.devRef .tc main_v3) = dstVec (W (Proc.devRef .tc main_arg1)) := by
  after_results_simp; rfl
theorem ops0_v12 : StableHlo.after (hostOps0 (F := Ideal)) W (Proc.devRef .tc main_v12) = invCol (dstVec (W (Proc.devRef .tc main_arg1))) := by
  after_results_simp; rfl
theorem ops0_v24 : StableHlo.after (hostOps0 (F := Ideal)) W (Proc.devRef .tc main_v24)
    = aggr64 (W (Proc.devRef .tc main_arg0)) (srcVec (W (Proc.devRef .tc main_arg1))) (dstVec (W (Proc.devRef .tc main_arg1))) := by
  after_results_simp; rfl
theorem ops0_v25 : StableHlo.after (hostOps0 (F := Ideal)) W (Proc.devRef .tc main_v25) = biasRow (W (Proc.devRef .tc main_arg3)) := by
  after_results_simp; rfl
theorem ops0_arg0 : StableHlo.after (hostOps0 (F := Ideal)) W (Proc.devRef .tc main_arg0) = W (Proc.devRef .tc main_arg0) := by
  after_results_simp
theorem ops0_arg2 : StableHlo.after (hostOps0 (F := Ideal)) W (Proc.devRef .tc main_arg2) = W (Proc.devRef .tc main_arg2) := by
  after_results_simp
theorem ops0_arg4 : StableHlo.after (hostOps0 (F := Ideal)) W (Proc.devRef .tc main_arg4) = W (Proc.devRef .tc main_arg4) := by
  after_results_simp
theorem ops0_arg5 : StableHlo.after (hostOps0 (F := Ideal)) W (Proc.devRef .tc main_arg5) = W (Proc.devRef .tc main_arg5) := by
  after_results_simp
theorem ops0_arg6 : StableHlo.after (hostOps0 (F := Ideal)) W (Proc.devRef .tc main_arg6) = W (Proc.devRef .tc main_arg6) := by
  after_results_simp
theorem ops0_arg7 : StableHlo.after (hostOps0 (F := Ideal)) W (Proc.devRef .tc main_arg7) = W (Proc.devRef .tc main_arg7) := by
  after_results_simp

/-! ## The operations between the two stages -/

theorem ops1_v37 : StableHlo.after (hostOps1 (F := Ideal)) W (Proc.devRef .tc main_v37)
    = aggr128 (W (Proc.devRef .tc main_v26)) (W (Proc.devRef .tc main_v1)) (W (Proc.devRef .tc main_v3)) := by
  after_results; rfl
theorem ops1_v38 : StableHlo.after (hostOps1 (F := Ideal)) W (Proc.devRef .tc main_v38) = biasRow (W (Proc.devRef .tc main_arg6)) := by
  after_results; rfl
theorem ops1_v26 : StableHlo.after (hostOps1 (F := Ideal)) W (Proc.devRef .tc main_v26) = W (Proc.devRef .tc main_v26) := by
  after_results
theorem ops1_v12 : StableHlo.after (hostOps1 (F := Ideal)) W (Proc.devRef .tc main_v12) = W (Proc.devRef .tc main_v12) := by
  after_results
theorem ops1_arg5 : StableHlo.after (hostOps1 (F := Ideal)) W (Proc.devRef .tc main_arg5) = W (Proc.devRef .tc main_arg5) := by
  after_results
theorem ops1_arg6 : StableHlo.after (hostOps1 (F := Ideal)) W (Proc.devRef .tc main_arg6) = W (Proc.devRef .tc main_arg6) := by
  after_results
theorem ops1_arg7 : StableHlo.after (hostOps1 (F := Ideal)) W (Proc.devRef .tc main_arg7) = W (Proc.devRef .tc main_arg7) := by
  after_results

end Cert.KernelIdeal.HostVal

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.KernelValue.lean ====
/-
  The idealized kernel's result as one function of its arguments.

  `hidden` is the first stage's output: the layer with a reciprocal column, followed by the maximum with zero, of the
  neighbour sums of the input features, the input features themselves and the weight column.  `result` is the second
  stage's: the same layer, without activation, of the neighbour sums of `hidden`, of `hidden` and of the same weight
  column.  The buffers each stage is entered with are traced back through the host operations and the first stage's
  write-backs to the arguments.  With the weight column equal to one over the neighbour count raised to at least one,
  both stages are the layers that divide by that count (`hidden_eq`, `result_eq`).
-/
import proofs.«176434_j46703474376723_2_alg».proof.Proof.KernelRun
import proofs.«176434_j46703474376723_2_alg».proof.Proof.KernelBlocks
import proofs.«176434_j46703474376723_2_alg».proof.Proof.KernelHost
import proofs.«176434_j46703474376723_2_alg».proof.Proof.LibColumnOfVector
import Idealize.ShloMosaic.Lib.IdealHost

set_option maxRecDepth 16384

noncomputable section

namespace Cert.KernelIdeal.Val

open Cert.KernelIdeal Cert.KernelIdeal.Gen Cert.KernelIdeal.HostVal Cert.KernelIdeal.Blocks Cert.Sage
open Idealize.ShloMosaic Idealize.ShloMosaic.TcCoe Idealize.ShloMosaic.ValueIdx Idealize.SL.Sem
open Idealize.ShloMosaic.Pipeline (Dat Cfg Window)

/-- The first stage's output, from the arguments. -/
def hidden (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) : FVec Ideal S100000x128 .f32 :=
  layerMulRelu (aggr64 x0 (srcVec x1) (dstVec x1)) x0 (invCol (dstVec x1)) x2 x4 (biasRow x3)

/-- The program's result, from the arguments. -/
def result (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) (x5 : FVec Ideal S128x128 .f32) (x6 : FVec Ideal S128 .f32)
    (x7 : FVec Ideal S128x128 .f32) : FVec Ideal S100000x128 .f32 :=
  layerMul (aggr128 (hidden x0 x1 x2 x3 x4) (srcVec x1) (dstVec x1)) (hidden x0 x1 x2 x3 x4) (invCol (dstVec x1)) x5 x7 (biasRow x6)

variable (m : (ℓ : Loc nD τ sig) → Buf (Elt Ideal) ℓ) (ρ : Dev nD → PrngReg)

/-! ## The buffers the first stage is entered with -/

theorem V1_v24 (c : Dev nD) : V1 m ρ c main_v24 = aggr64 (m ((c : Thread nD τ).loc main_arg0)) (srcVec (m ((c : Thread nD τ).loc main_arg1))) (dstVec (m ((c : Thread nD τ).loc main_arg1))) := ops0_v24 (W0 m ρ c)
theorem V1_v25 (c : Dev nD) : V1 m ρ c main_v25 = biasRow (m ((c : Thread nD τ).loc main_arg3)) := ops0_v25 (W0 m ρ c)
theorem V1_v12 (c : Dev nD) : V1 m ρ c main_v12 = invCol (dstVec (m ((c : Thread nD τ).loc main_arg1))) := ops0_v12 (W0 m ρ c)
theorem V1_arg0 (c : Dev nD) : V1 m ρ c main_arg0 = (m ((c : Thread nD τ).loc main_arg0)) := ops0_arg0 (W0 m ρ c)
theorem V1_arg2 (c : Dev nD) : V1 m ρ c main_arg2 = (m ((c : Thread nD τ).loc main_arg2)) := ops0_arg2 (W0 m ρ c)
theorem V1_arg4 (c : Dev nD) : V1 m ρ c main_arg4 = (m ((c : Thread nD τ).loc main_arg4)) := ops0_arg4 (W0 m ρ c)

/-- The first stage's output array after its write-backs. -/
theorem hidden_arr (c : Dev nD) :
    (dat0 (V1 m ρ) c).arrAt 6 cfg0.N = hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [final0 (V1 m ρ) c, V1_v24, V1_v25, V1_v12, V1_arg0, V1_arg2, V1_arg4]
  rfl

/-! ## The buffers the second stage is entered with -/

theorem W2_v26 (c : Dev nD) : W2 m ρ c (Proc.devRef .tc main_v26) = hidden (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans (hidden_arr m ρ c)
theorem W2_v12 (c : Dev nD) : W2 m ρ c (Proc.devRef .tc main_v12) = invCol (dstVec (m ((c : Thread nD τ).loc main_arg1))) :=
  (W2_arr m ρ c 5).trans ((((dat0 (V1 m ρ) c).arrAt_in 5 rfl _).trans (A_eq0 (V1 m ρ) c 5)).trans (V1_v12 m ρ c))
theorem W2_v1 (c : Dev nD) : W2 m ρ c (Proc.devRef .tc main_v1) = srcVec (m ((c : Thread nD τ).loc main_arg1)) :=
  (W2_of_ne m ρ c main_v1 (by decide)).trans (ops0_v1 (W0 m ρ c))
theorem W2_v3 (c : Dev nD) : W2 m ρ c (Proc.devRef .tc main_v3) = dstVec (m ((c : Thread nD τ).loc main_arg1)) :=
  (W2_of_ne m ρ c main_v3 (by decide)).trans (ops0_v3 (W0 m ρ c))
theorem W2_arg5 (c : Dev nD) : W2 m ρ c (Proc.devRef .tc main_arg5) = (m ((c : Thread nD τ).loc main_arg5)) :=
  (W2_of_ne m ρ c main_arg5 (by decide)).trans (ops0_arg5 (W0 m ρ c))
theorem W2_arg6 (c : Dev nD) : W2 m ρ c (Proc.devRef .tc main_arg6) = (m ((c : Thread nD τ).loc main_arg6)) :=
  (W2_of_ne m ρ c main_arg6 (by decide)).trans (ops0_arg6 (W0 m ρ c))
theorem W2_arg7 (c : Dev nD) : W2 m ρ c (Proc.devRef .tc main_arg7) = (m ((c : Thread nD τ).loc main_arg7)) :=
  (W2_of_ne m ρ c main_arg7 (by decide)).trans (ops0_arg7 (W0 m ρ c))

theorem V3_v37 (c : Dev nD) : V3 m ρ c main_v37
    = aggr128 (hidden (m ((c : Thread nD τ).loc main_arg0)) (m ((c : Thread nD τ).loc main_arg1)) (m ((c : Thread nD τ).loc main_arg2)) (m ((c : Thread nD τ).loc main_arg3)) (m ((c : Thread nD τ).loc main_arg4))) (srcVec (m ((c : Thread nD τ).loc main_arg1))) (dstVec (m ((c : Thread nD τ).loc main_arg1))) := by
  refine (ops1_v37 (W2 m ρ c)).trans ?_
  rw [W2_v26, W2_v1, W2_v3]
theorem V3_v26 (c : Dev nD) : V3 m ρ c main_v26 = hidden (m ((c : Thread nD τ).loc main_arg0)) (m ((c : Thread nD τ).loc main_arg1)) (m ((c : Thread nD τ).loc main_arg2)) (m ((c : Thread nD τ).loc main_arg3)) (m ((c : Thread nD τ).loc main_arg4)) :=
  (ops1_v26 (W2 m ρ c)).trans (W2_v26 m ρ c)
theorem V3_v12 (c : Dev nD) : V3 m ρ c main_v12 = invCol (dstVec (m ((c : Thread nD τ).loc main_arg1))) :=
  (ops1_v12 (W2 m ρ c)).trans (W2_v12 m ρ c)
theorem V3_v38 (c : Dev nD) : V3 m ρ c main_v38 = biasRow (m ((c : Thread nD τ).loc main_arg6)) := by
  refine (ops1_v38 (W2 m ρ c)).trans ?_
  rw [W2_arg6]
theorem V3_arg5 (c : Dev nD) : V3 m ρ c main_arg5 = (m ((c : Thread nD τ).loc main_arg5)) := (ops1_arg5 (W2 m ρ c)).trans (W2_arg5 m ρ c)
theorem V3_arg7 (c : Dev nD) : V3 m ρ c main_arg7 = (m ((c : Thread nD τ).loc main_arg7)) := (ops1_arg7 (W2 m ρ c)).trans (W2_arg7 m ρ c)

/-- The result array after the second stage's write-backs. -/
theorem result_arr (c : Dev nD) :
    (dat1 (V3 m ρ) c).arrAt 6 cfg1.N
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final1 (V3 m ρ) c, V3_v37, V3_v26, V3_v12, V3_v38, V3_arg5, V3_arg7]
  rfl

/-- Every weakly fair execution of the idealized kernel ends with the result array at `result` of the arguments and the
    arguments as launched. -/
theorem run : θ_run defs (onTc (τ := τ) (main (F := Ideal))) ⟨m, fun _ => 0, ρ⟩ (fun r => ∀ c : Dev nD,
      r.2.mem ((c.tc : Thread nD τ).loc main_v39)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_arr m ρ c), (h c).2⟩) (Cert.KernelIdeal.Run.run_result m ρ)

/-! ## The quotient form -/

/-- The neighbour count as a column. -/
def cntCol (d : (⟨S1250000, .i32⟩ : BufTy).Contents (Elt Ideal)) : FVec Ideal S100000x1 .f32 :=
  shapeCast S100000x1 (cntVec d) shapeCasts_S100000_S100000x1

/-- The weight column is one over the count raised to at least one. -/
theorem invCol_apply (d : (⟨S1250000, .i32⟩ : BufTy).Contents (Elt Ideal)) (p : Fin 100000) :
    invCol d (ix2 p (0 : Fin 1)) = Ideal.div oneWord (max (cntCol d (ix2 p (0 : Fin 1))) oneWord) := by
  unfold invCol cntCol
  rw [ColumnOfVector.shapeCast_a_a1_apply, ColumnOfVector.shapeCast_a_a1_apply, hostDivf_apply, maximumf_apply,
    broadcastInDim_scalar_apply, constant_apply]

theorem hidden_eq (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) :
    hidden x0 x1 x2 x3 x4 = layerRelu (aggr64 x0 (srcVec x1) (dstVec x1)) x0 (cntCol (dstVec x1)) x2 x4 (biasRow x3) :=
  layerMulRelu_eq_layerRelu _ _ _ _ _ _ _ (invCol_apply (dstVec x1))

theorem result_eq (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) (x5 : FVec Ideal S128x128 .f32) (x6 : FVec Ideal S128 .f32)
    (x7 : FVec Ideal S128x128 .f32) :
    result x0 x1 x2 x3 x4 x5 x6 x7
      = layer (aggr128 (hidden x0 x1 x2 x3 x4) (srcVec x1) (dstVec x1)) (hidden x0 x1 x2 x3 x4) (cntCol (dstVec x1)) x5 x7 (biasRow x6) :=
  layerMul_eq_layer _ _ _ _ _ _ _ (invCol_apply (dstVec x1))

end Cert.KernelIdeal.Val

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibSageStage.lean ====
/-
  The two spellings of one dense stage, each equal to `Sage.layer` of its operands, over the extended reals.

  A row tile computes the stage as: divide the neighbour sums by the count column (first raised to at least `1`, then
  spread along the rows' features), multiply by the left weights, add the tile's own features times the right weights, add
  the bias row spread over the tile's rows; the operands of the two products are first narrowed to a shorter float
  format, which changes nothing here.  The host computes the same from the count as a vector (raised to at least `1`,
  laid out as a column, spread over the features) and the bias as a vector (laid out as a row, spread over the rows).
  At an entry `(p, q)` both are the two sums over the contracted coordinate plus the bias at `q`, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176434_j46703474376723_2_alg».proof.Proof.LibSageLayer
import proofs.«176434_j46703474376723_2_alg».proof.Proof.LibPlainDot
import proofs.«176434_j46703474376723_2_alg».proof.Proof.LibColumns
import proofs.«176434_j46703474376723_2_alg».proof.Proof.LibRegionBlockSpread
import proofs.«176434_j46703474376723_2_alg».proof.Proof.LibDense
import proofs.«176434_j46703474376723_2_alg».proof.Proof.LibColumnOfVector

noncomputable section

namespace Cert.Sage

open Idealize.ShloMosaic Idealize.ShloMosaic.ValueIdx

variable {M K N : ℕ}

/-- The count column raised to at least one and spread along the features reads, at `(p, k)`, `max (cnt (p, 0)) 1`. -/
theorem tileDivisor_apply (cnt : FVec Ideal ⟨2, ![M, 1]⟩ .f32)
    (hc : (⟨2, ![M, 1]⟩ : Shape).ShapeCasts ⟨2, ![M, 1]⟩) (hbc : (⟨2, ![M, 1]⟩ : Shape).Broadcasts ⟨2, ![M, K]⟩)
    (p : Fin M) (k : Fin K) :
    broadcastTo ⟨2, ![M, K]⟩ (maximumf (shapeCast ⟨2, ![M, 1]⟩ cnt hc)
        (broadcast ⟨2, ![M, 1]⟩ (Scalar.ofBits (F := Ideal) .f32 0x3F800000#32))) hbc (ix2 p k)
      = max (cnt (ix2 p (0 : Fin 1))) oneWord := by
  rw [broadcastTo_a1_ab_apply, shapeCast_self]
  rfl

/-- A tile's dense stage as its body computes it is the layer of the tile's arrays. -/
theorem tileStage_eq (d : DotDims ⟨2, ![M, K]⟩ ⟨2, ![K, N]⟩ ⟨2, ![M, N]⟩) (hd : d = DotDims.plain M K N)
    (cnt : FVec Ideal ⟨2, ![M, 1]⟩ .f32) (agg : FVec Ideal ⟨2, ![M, K]⟩ .f32) (h : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (divf (shapeCast ⟨2, ![M, K]⟩ agg ha)
            (broadcastTo ⟨2, ![M, K]⟩ (maximumf (shapeCast ⟨2, ![M, 1]⟩ cnt hc)
              (broadcast ⟨2, ![M, 1]⟩ (Scalar.ofBits (F := Ideal) .f32 0x3F800000#32))) hbc)) t)
          (truncf .bf16 wl t) (constant ⟨2, ![M, N]⟩ .f32 0x00000000#32))
        (matmul d none (shapeCast ⟨2, ![M, K]⟩ h ha) (truncf .bf16 wr t) (constant ⟨2, ![M, N]⟩ .f32 0x00000000#32)))
      (broadcastTo ⟨2, ![M, N]⟩ (shapeCast ⟨2, ![1, N]⟩ b hb) hbr)
    = layer agg h cnt wl wr b := by
  funext j
  obtain ⟨p, q, rfl⟩ : ∃ (p : Fin M) (q : Fin N), j = ix2 p q := ⟨j 0, j 1, eq_ix2 j⟩
  rw [layer_apply, addf_apply, addf_apply]
  show FloatOps.matmul d none _ _ (constant ⟨2, ![M, N]⟩ .f32 0x00000000#32) (ix2 p q)
      + FloatOps.matmul d none _ _ (constant ⟨2, ![M, N]⟩ .f32 0x00000000#32) (ix2 p q) + _ = _
  rw [PlainDot.matmul_zero_apply d hd, PlainDot.matmul_zero_apply d hd, broadcastTo_1b_ab_apply]
  refine congrArg₂ (· + ·) (congrArg₂ (· + ·) (Finset.sum_congr rfl fun k _ => ?_) (Finset.sum_congr rfl fun k _ => ?_)) ?_
  · show Ideal.div (shapeCast ⟨2, ![M, K]⟩ agg ha (ix2 p k)) (broadcastTo ⟨2, ![M, K]⟩ _ hbc (ix2 p k)) * wl (ix2 k q) = _
    rw [tileDivisor_apply, shapeCast_self]
  · show shapeCast ⟨2, ![M, K]⟩ h ha (ix2 p k) * wr (ix2 k q) = _
    rw [shapeCast_self]
  · rw [shapeCast_self]

/-- The count vector raised to at least one, laid out as a column and spread along the features, reads at `(p, k)`
    `max (cnt p) 1`. -/
theorem hostDivisor_apply (cntv : FVec Ideal ⟨1, ![M]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2)) (p : Fin M) (k : Fin K) :
    broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
        (maximumf cntv (broadcastInDim (s := ⟨0, ![]⟩) ⟨1, ![M]⟩ (![] : Fin 0 → Fin 1) h0 (constant (F := Ideal) ⟨0, ![]⟩ .f32 0x3F800000#32)))) (ix2 p k)
      = max (cntv (ix1 p)) oneWord := by
  rw [KeepDims.broadcastInDim_a1_ab_apply, KeepDims.broadcastInDim_a_a1_apply, maximumf_apply,
    broadcastInDim_apply (![] : Fin 0 → Fin 1) h0 _ (ix1 p) ix0 (fun a => a.elim0)]
  rfl

/-- The host's dense stage is the layer of its operands, the count laid out as a column and the bias as a row. -/
theorem hostStage_eq (d : DotDims ⟨2, ![M, K]⟩ ⟨2, ![K, N]⟩ ⟨2, ![M, N]⟩) (hd : d = DotDims.plain M K N)
    (agg x : FVec Ideal ⟨2, ![M, K]⟩ .f32) (cntv : FVec Ideal ⟨1, ![M]⟩ .f32)
    (wl wr : FVec Ideal ⟨2, ![K, N]⟩ .f32) (b : FVec Ideal ⟨1, ![N]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hc : (⟨1, ![M]⟩ : Shape).ShapeCasts ⟨2, ![M, 1]⟩) (hr : (⟨1, ![N]⟩ : Shape).ShapeCasts ⟨2, ![1, N]⟩) :
    addf (addf
        (Host.dotGeneral d none (Host.divf agg (broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
          (maximumf cntv (broadcastInDim (s := ⟨0, ![]⟩) ⟨1, ![M]⟩ (![] : Fin 0 → Fin 1) h0 (constant (F := Ideal) ⟨0, ![]⟩ .f32 0x3F800000#32)))))) wl)
        (Host.dotGeneral d none x wr))
      (broadcastInDim (s := ⟨2, ![1, N]⟩) ⟨2, ![M, N]⟩ (![0, 1] : Fin 2 → Fin 2) h4 (broadcastInDim (s := ⟨1, ![N]⟩) ⟨2, ![1, N]⟩ (![1] : Fin 1 → Fin 2) h3 b))
    = layer agg x (shapeCast ⟨2, ![M, 1]⟩ cntv hc) wl wr (shapeCast ⟨2, ![1, N]⟩ b hr) := by
  funext j
  obtain ⟨p, q, rfl⟩ : ∃ (p : Fin M) (q : Fin N), j = ix2 p q := ⟨j 0, j 1, eq_ix2 j⟩
  rw [layer_apply, addf_apply, addf_apply, DenseLayer.inDimRow_apply, shapeCast_a_1a_apply,
    ColumnOfVector.shapeCast_a_a1_apply]
  simp only [Host.dotGeneral]
  rw [PlainDot.dotGeneral_apply d hd, PlainDot.dotGeneral_apply d hd]
  refine congrArg₂ (· + ·) (congrArg₂ (· + ·) (Finset.sum_congr rfl fun k _ => ?_) rfl) rfl
  show Ideal.div (agg (ix2 p k)) (broadcastInDim (s := ⟨2, ![M, 1]⟩) ⟨2, ![M, K]⟩ (![0, 1] : Fin 2 → Fin 2) h2 _ (ix2 p k)) * wl (ix2 k q) = _
  rw [hostDivisor_apply]

end Cert.Sage

end
-- ==== Proof.LibSageBiasFirst.lean ====
/-
  The host's dense stage with the bias added before the second product, over the extended reals.

  A plain reference often writes a mean-aggregation layer as `(mean · Wl + b) + x · Wr`.  Addition of extended reals is
  commutative and associative with no side condition (the sum of `+∞` and `-∞` is one fixed value whatever the
  grouping), so entry by entry this is `(mean · Wl + x · Wr) + b`: the layer that divides the neighbour sums by the
  neighbour count raised to at least one, of the neighbour sums, the features, the count laid out as a column and the
  bias laid out as a row.
-/
import Idealize.ShloMosaic.PureOps.Ideal
import Idealize.ShloMosaic.PureOps.Ideal.Laws
import Idealize.ShloMosaic.Lib.ValueIdx
import proofs.«176434_j46703474376723_2_alg».proof.Proof.LibSageStage

noncomputable section

namespace Cert.Sage

open Idealize.ShloMosaic Idealize.ShloMosaic.ValueIdx

variable {M K N : ℕ}

/-- The host's dense stage with the bias added before the second product is the same layer. -/
theorem hostStageBiasFirst_eq (d : DotDims ⟨2, ![M, K]⟩ ⟨2, ![K, N]⟩ ⟨2, ![M, N]⟩) (hd : d = DotDims.plain M K N)
    (agg x : FVec Ideal ⟨2, ![M, K]⟩ .f32) (cntv : FVec Ideal ⟨1, ![M]⟩ .f32)
    (wl wr : FVec Ideal ⟨2, ![K, N]⟩ .f32) (b : FVec Ideal ⟨1, ![N]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hc : (⟨1, ![M]⟩ : Shape).ShapeCasts ⟨2, ![M, 1]⟩) (hr : (⟨1, ![N]⟩ : Shape).ShapeCasts ⟨2, ![1, N]⟩) :
    addf (addf
        (Host.dotGeneral d none (Host.divf agg (broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
          (maximumf cntv (broadcastInDim (s := ⟨0, ![]⟩) ⟨1, ![M]⟩ (![] : Fin 0 → Fin 1) h0 (constant (F := Ideal) ⟨0, ![]⟩ .f32 0x3F800000#32)))))) wl)
        (broadcastInDim (s := ⟨2, ![1, N]⟩) ⟨2, ![M, N]⟩ (![0, 1] : Fin 2 → Fin 2) h4 (broadcastInDim (s := ⟨1, ![N]⟩) ⟨2, ![1, N]⟩ (![1] : Fin 1 → Fin 2) h3 b)))
      (Host.dotGeneral d none x wr)
    = layer agg x (shapeCast ⟨2, ![M, 1]⟩ cntv hc) wl wr (shapeCast ⟨2, ![1, N]⟩ b hr) := by
  rw [← hostStage_eq d hd agg x cntv wl wr b h0 h1 h2 h3 h4 hc hr]
  funext j
  show (_ + _) + _ = (_ + _) + _
  exact add_right_comm _ _ _

end Cert.Sage

end
-- ==== Proof.RefValue.lean ====
/-
  The reference's two layers as the layer that divides by the neighbour count.

  The reference computes each layer as `(mean · Wl + b) + x · Wr`, the mean being the neighbour sums divided by the
  neighbour count raised to at least one; the count is a vector laid out as a column and spread over the features, the
  bias a vector laid out as a row and spread over the nodes.  Addition of extended reals is commutative and associative
  with no side condition, so this is `(mean · Wl + x · Wr) + b`: the layer of the neighbour sums, the features, the count
  column and the bias row.  Its gathers, scatters and index arithmetic are, operation for operation, the ones that
  produce the kernel's neighbour sums and count.
-/
import proofs.«176434_j46703474376723_2_alg».proof.Proof.Gen.ReferenceIdeal.Read
import proofs.«176434_j46703474376723_2_alg».proof.Proof.KernelHost
import proofs.«176434_j46703474376723_2_alg».proof.Proof.LibSageBiasFirst
import Idealize.ShloMosaic.Lib.IdealHost

set_option maxRecDepth 16384

noncomputable section

namespace Cert.ReferenceIdeal.RefValue

open Cert.ReferenceIdeal Cert.ReferenceIdeal.Gen Cert.ReferenceIdeal.Read Cert.Sage Cert.KernelIdeal.HostVal
open Idealize.ShloMosaic Idealize.ShloMosaic.TcCoe Idealize.ShloMosaic.ValueIdx

/-- The stage lemma at the first layer's sizes, in the reference's own spelling. -/
theorem stage64 (A x0 : FVec Ideal S100000x64 .f32) (Cn : FVec Ideal S100000 .f32) (x2 x4 : FVec Ideal S64x128 .f32) (x3 : FVec Ideal S128 .f32) :
    addf (addf
        (Host.dotGeneral dot_S100000x64_S64x128_S100000x128_1_0_0_1_n_n none
          (Host.divf A (broadcastInDim S100000x64 ![0, 1] bcast_S100000x1_S100000x64_0_1 (broadcastInDim S100000x1 ![0] bcast_S100000_S100000x1_0
            (maximumf Cn (broadcastInDim S100000 ![] bcast_S_S100000 (constant (F := Ideal) S_ .f32 0x3F800000#32)))))) x2)
        (broadcastInDim S100000x128 ![0, 1] bcast_S1x128_S100000x128_0_1 (broadcastInDim S1x128 ![1] bcast_S128_S1x128_1 x3)))
      (Host.dotGeneral dot_S100000x64_S64x128_S100000x128_1_0_0_1_n_n none x0 x4)
    = layer A x0 (shapeCast Cert.KernelIdeal.S100000x1 Cn Cert.KernelIdeal.Gen.shapeCasts_S100000_S100000x1) x2 x4 (biasRow x3) :=
  hostStageBiasFirst_eq dot_S100000x64_S64x128_S100000x128_1_0_0_1_n_n rfl A x0 Cn x2 x4 x3
    bcast_S_S100000 bcast_S100000_S100000x1_0 bcast_S100000x1_S100000x64_0_1 bcast_S128_S1x128_1 bcast_S1x128_S100000x128_0_1
    Cert.KernelIdeal.Gen.shapeCasts_S100000_S100000x1 Cert.KernelIdeal.Gen.shapeCasts_S128_S1x128

/-- The stage lemma at the second layer's sizes, in the reference's own spelling. -/
theorem stage128 (A H : FVec Ideal S100000x128 .f32) (Cn : FVec Ideal S100000 .f32) (x5 x7 : FVec Ideal S128x128 .f32) (x6 : FVec Ideal S128 .f32) :
    addf (addf
        (Host.dotGeneral dot_S100000x128_S128x128_S100000x128_1_0_0_1_n_n none
          (Host.divf A (broadcastInDim S100000x128 ![0, 1] bcast_S100000x1_S100000x128_0_1 (broadcastInDim S100000x1 ![0] bcast_S100000_S100000x1_0
            (maximumf Cn (broadcastInDim S100000 ![] bcast_S_S100000 (constant (F := Ideal) S_ .f32 0x3F800000#32)))))) x5)
        (broadcastInDim S100000x128 ![0, 1] bcast_S1x128_S100000x128_0_1 (broadcastInDim S1x128 ![1] bcast_S128_S1x128_1 x6)))
      (Host.dotGeneral dot_S100000x128_S128x128_S100000x128_1_0_0_1_n_n none H x7)
    = layer A H (shapeCast Cert.KernelIdeal.S100000x1 Cn Cert.KernelIdeal.Gen.shapeCasts_S100000_S100000x1) x5 x7 (biasRow x6) :=
  hostStageBiasFirst_eq dot_S100000x128_S128x128_S100000x128_1_0_0_1_n_n rfl A H Cn x5 x7 x6
    bcast_S_S100000 bcast_S100000_S100000x1_0 bcast_S100000x1_S100000x128_0_1 bcast_S128_S1x128_1 bcast_S1x128_S100000x128_0_1
    Cert.KernelIdeal.Gen.shapeCasts_S100000_S100000x1 Cert.KernelIdeal.Gen.shapeCasts_S128_S1x128

/-- The reference's first neighbour sums are the kernel's. -/
theorem v13_eq (x0 : FVec Ideal S100000x64 .f32) (x1 : (⟨S2x1250000, .i32⟩ : BufTy).Contents (Elt Ideal)) :
    val_main_v13 (F := Ideal) x0 x1 = aggr64 x0 (srcVec x1) (dstVec x1) := rfl
/-- Its neighbour count, computed once per layer, is the kernel's. -/
theorem v17_eq (x1 : (⟨S2x1250000, .i32⟩ : BufTy).Contents (Elt Ideal)) : val_main_v17 (F := Ideal) x1 = cntVec (dstVec x1) := rfl
theorem v43_eq (x1 : (⟨S2x1250000, .i32⟩ : BufTy).Contents (Elt Ideal)) : val_main_v43 (F := Ideal) x1 = cntVec (dstVec x1) := rfl
/-- Its second neighbour sums are the kernel's, of the first layer's output. -/
theorem v39_eq (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) :
    val_main_v39 (F := Ideal) x0 x1 x2 x3 x4 = aggr128 (val_main_v29 (F := Ideal) x0 x1 x2 x3 x4) (srcVec x1) (dstVec x1) := rfl

/-- The first layer with its activation. -/
theorem ref_hidden (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) :
    val_main_v29 (F := Ideal) x0 x1 x2 x3 x4
      = layerRelu (aggr64 x0 (srcVec x1) (dstVec x1)) x0
          (shapeCast Cert.KernelIdeal.S100000x1 (cntVec (dstVec x1)) Cert.KernelIdeal.Gen.shapeCasts_S100000_S100000x1) x2 x4 (biasRow x3) := by
  unfold val_main_v29 val_main_v28 val_main_v27 val_main_v26 val_main_v25 val_main_v24 val_main_v23 val_main_v22 val_main_v21
    val_main_v20 val_main_v19 val_main_v18 val_main_cst_3 val_main_call0_v0 val_main_call0_cst
  rw [v13_eq, v17_eq]
  generalize aggr64 x0 (srcVec x1) (dstVec x1) = A
  generalize cntVec (dstVec x1) = Cn
  funext j
  rw [maximumf_apply, stage64 A x0 Cn x2 x4 x3, broadcastInDim_scalar_apply, constant_apply]
  rfl

/-- The second layer, of the first layer's output. -/
theorem ref_result (x0 : FVec Ideal S100000x64 .f32) (x1 : (⟨S2x1250000, .i32⟩ : BufTy).Contents (Elt Ideal)) (x2 : FVec Ideal S64x128 .f32)
    (x3 : FVec Ideal S128 .f32) (x4 : FVec Ideal S64x128 .f32) (x5 : FVec Ideal S128x128 .f32) (x6 : FVec Ideal S128 .f32)
    (x7 : FVec Ideal S128x128 .f32) :
    val_main_v54 (F := Ideal) x0 x1 x2 x3 x4 x5 x6 x7
      = layer (aggr128 (val_main_v29 (F := Ideal) x0 x1 x2 x3 x4) (srcVec x1) (dstVec x1)) (val_main_v29 (F := Ideal) x0 x1 x2 x3 x4)
          (shapeCast Cert.KernelIdeal.S100000x1 (cntVec (dstVec x1)) Cert.KernelIdeal.Gen.shapeCasts_S100000_S100000x1) x5 x7 (biasRow x6) := by
  unfold val_main_v54 val_main_v53 val_main_v52 val_main_v51 val_main_v50 val_main_v49 val_main_v48 val_main_v47 val_main_v46
    val_main_v45 val_main_v44 val_main_cst_9
  rw [v39_eq, v43_eq]
  generalize val_main_v29 (F := Ideal) x0 x1 x2 x3 x4 = H
  generalize aggr128 H (srcVec x1) (dstVec x1) = A
  generalize cntVec (dstVec x1) = Cn
  exact stage128 A H Cn x5 x7 x6

end Cert.ReferenceIdeal.RefValue

end
-- ==== Proof.Join.lean ====
/-
  The two programs compute one function of the arguments.

  The kernel's stages multiply the neighbour sums by one over the neighbour count raised to at least one; the reference's
  divide by it.  The divisor is at least one, hence not zero, and off zero the product with `1 / c` is the quotient by
  `c` on every extended real.  The reference adds the bias before the second product and the kernel after it; addition
  of extended reals is commutative and associative.  So the first layers agree, and the second layers, being the same
  layer of equal first layers, agree.  No finiteness of an input is used.
-/
import proofs.«176434_j46703474376723_2_alg».proof.Proof.KernelValue
import proofs.«176434_j46703474376723_2_alg».proof.Proof.RefValue

set_option maxRecDepth 16384

noncomputable section

namespace Cert.Join

open Cert.Sage Cert.KernelIdeal.HostVal
open Idealize.ShloMosaic Idealize.ShloMosaic.TcCoe

theorem hidden_agree (x0 : FVec Ideal Cert.KernelIdeal.S100000x64 .f32) (x1 : (⟨Cert.KernelIdeal.S2x1250000, .i32⟩ : BufTy).Contents (Elt Ideal))
    (x2 : FVec Ideal Cert.KernelIdeal.S64x128 .f32) (x3 : FVec Ideal Cert.KernelIdeal.S128 .f32) (x4 : FVec Ideal Cert.KernelIdeal.S64x128 .f32) :
    Cert.ReferenceIdeal.Read.val_main_v29 (F := Ideal) x0 x1 x2 x3 x4 = Cert.KernelIdeal.Val.hidden x0 x1 x2 x3 x4 :=
  (Cert.ReferenceIdeal.RefValue.ref_hidden x0 x1 x2 x3 x4).trans (Cert.KernelIdeal.Val.hidden_eq x0 x1 x2 x3 x4).symm

theorem result_agree (x0 : FVec Ideal Cert.KernelIdeal.S100000x64 .f32) (x1 : (⟨Cert.KernelIdeal.S2x1250000, .i32⟩ : BufTy).Contents (Elt Ideal))
    (x2 : FVec Ideal Cert.KernelIdeal.S64x128 .f32) (x3 : FVec Ideal Cert.KernelIdeal.S128 .f32) (x4 : FVec Ideal Cert.KernelIdeal.S64x128 .f32)
    (x5 : FVec Ideal Cert.KernelIdeal.S128x128 .f32) (x6 : FVec Ideal Cert.KernelIdeal.S128 .f32) (x7 : FVec Ideal Cert.KernelIdeal.S128x128 .f32) :
    Cert.ReferenceIdeal.Read.val_main_v54 (F := Ideal) x0 x1 x2 x3 x4 x5 x6 x7 = Cert.KernelIdeal.Val.result x0 x1 x2 x3 x4 x5 x6 x7 := by
  rw [Cert.ReferenceIdeal.RefValue.ref_result, hidden_agree, Cert.KernelIdeal.Val.result_eq]
  rfl

end Cert.Join

end
-- ==== Proof.lean ====
/-
  A two-layer mean-aggregation graph network: a row-tiled kernel against its plain reference, equal over the extended reals.

  Both programs compute, for 100000 nodes and 1250000 edges, `out = L₂ (h)` with `h = max (L₁ (x)) 0`, where a layer
  `L (f)` of a feature array `f` is `mean (f) · Wl + f · Wr + b` and `mean (f)` is, row by row, the sum of the rows of `f`
  at the node's in-neighbours divided by the number of those neighbours raised to at least one.  The neighbour sums and
  the neighbour count are the same gathers and scatter-additions in both programs.  They differ in three ways, none
  of which changes a value over the extended reals:
    * the kernel narrows the operands of its products, and the gathered rows, to a shorter float format: a change of
      format is the identity here;
    * the kernel multiplies the neighbour sums by a column `1 / max (count) 1` computed once, where the reference divides by
      `max (count) 1`: the divisor is at least one, so it is not zero, and off zero the product with `1 / c` is the
      quotient by `c`, at the infinities too;
    * the kernel adds the bias after the second product, the reference before it: addition is commutative and
      associative with no side condition.
  The kernel computes each layer in twenty-five tiles of 4000 rows; a row of a layer depends on that row of the neighbour
  sums, of the features and of the weight column only, so the tiles' write-backs assemble the layer of the whole arrays.
  No finiteness of an input is used for the values; the precondition is needed by no step of the value argument.
-/
import proofs.«176434_j46703474376723_2_alg».proof.Defs
import proofs.«176434_j46703474376723_2_alg».proof.Proof.Gen.Kernel
import proofs.«176434_j46703474376723_2_alg».proof.Proof.Gen.Kernel.Skeleton
import proofs.«176434_j46703474376723_2_alg».proof.Proof.Gen.Kernel.Launch
import proofs.«176434_j46703474376723_2_alg».proof.Proof.Gen.Kernel.Points
import proofs.«176434_j46703474376723_2_alg».proof.Proof.Gen.Kernel.Frame
import proofs.«176434_j46703474376723_2_alg».proof.Proof.Gen.KernelIdeal
import proofs.«176434_j46703474376723_2_alg».proof.Proof.Gen.KernelIdeal.Skeleton
import proofs.«176434_j46703474376723_2_alg».proof.Proof.Gen.KernelIdeal.Launch
import proofs.«176434_j46703474376723_2_alg».proof.Proof.Gen.KernelIdeal.Points
import proofs.«176434_j46703474376723_2_alg».proof.Proof.Gen.KernelIdeal.Frame
import proofs.«176434_j46703474376723_2_alg».proof.Proof.Gen.ReferenceIdeal
import proofs.«176434_j46703474376723_2_alg».proof.Proof.Gen.Pre_finite_inputs
import proofs.«176434_j46703474376723_2_alg».proof.Proof.Gen.ReferenceIdeal.Run
import proofs.«176434_j46703474376723_2_alg».proof.Proof.Gen.ReferenceIdeal.Read
import proofs.«176434_j46703474376723_2_alg».proof.Proof.Join
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, with the same result array: the kernel's result is
    `result` of its arguments, the reference's the same function of its own, and the arguments agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Join.result_agree _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
